-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4 : Shape := ⟨2, ![16384, 4]⟩
abbrev S_ : Shape := ⟨0, ![]⟩

class Facts : Prop where
  bcast_S_S16384x4 : S_.BroadcastsInDim S16384x4 (![] : Fin 0 → Fin S16384x4.rank)
  reducesTo_S16384x4_S_d0_1 : S16384x4.ReducesTo [0, 1] S_
  h_S_ : 0 < S_.numel

variable [Facts]

def fn {F : FTy → Type} [FloatOps F] (main_arg0 : FVec F S16384x4 .f32) : IVec S_ 1 :=
  let main_v0 : FVec F S16384x4 .f32 := Host.absf main_arg0
  let main_cst : FVec F S_ .f32 := constant S_ .f32 0x7F800000#32
  let main_v1 : FVec F S16384x4 .f32 := broadcastInDim S16384x4 ![] bcast_S_S16384x4 main_cst
  let main_v2 : IVec S16384x4 1 := cmpf .olt main_v0 main_v1
  let main_c : IVec S_ 1 := constantI S_ 1 1#1
  let main_v3 : IVec S_ 1 := (fun x v => Host.reduce IntOp.andi x v reducesTo_S16384x4_S_d0_1 h_S_) main_v2 main_c
  main_v3
-- ==== Kernel.lean ====
abbrev S16384x4 : Shape := ⟨2, ![16384, 4]⟩
abbrev S16384x2 : Shape := ⟨2, ![16384, 2]⟩
abbrev S_ : Shape := ⟨0, ![]⟩
abbrev S16384 : Shape := ⟨1, ![16384]⟩
abbrev S16384x1 : Shape := ⟨2, ![16384, 1]⟩
abbrev S16384x16384 : Shape := ⟨2, ![16384, 16384]⟩
abbrev S2048x1 : Shape := ⟨2, ![2048, 1]⟩
abbrev S2048x2048 : Shape := ⟨2, ![2048, 2048]⟩

abbrev nBuf : Space → Nat
  | .hbm => 49
  | .vmem => 6
  | .smem => 0
  | _ => 0

abbrev bufTy : (tb : Table) → Fin (tcTables nBuf tb) → BufTy
  | .hbm, ⟨0, _⟩ => ⟨S16384x4, .f32⟩
  | .hbm, ⟨1, _⟩ => ⟨S16384x2, .f32⟩
  | .hbm, ⟨2, _⟩ => ⟨S_, .f32⟩
  | .hbm, ⟨3, _⟩ => ⟨S16384, .f32⟩
  | .hbm, ⟨4, _⟩ => ⟨S_, .f32⟩
  | .hbm, ⟨5, _⟩ => ⟨S16384, .f32⟩
  | .hbm, ⟨6, _⟩ => ⟨S16384, .f32⟩
  | .hbm, ⟨7, _⟩ => ⟨S16384, .f32⟩
  | .hbm, ⟨8, _⟩ => ⟨S_, .f32⟩
  | .hbm, ⟨9, _⟩ => ⟨S16384, .f32⟩
  | .hbm, ⟨10, _⟩ => ⟨S16384, .f32⟩
  | .hbm, ⟨11, _⟩ => ⟨S16384, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S16384, .f32⟩
  | .hbm, ⟨16, _⟩ => ⟨S16384, .f32⟩
  | .hbm, ⟨17, _⟩ => ⟨S_, .f32⟩
  | .hbm, ⟨18, _⟩ => ⟨S16384, .f32⟩
  | .hbm, ⟨19, _⟩ => ⟨S16384, .f32⟩
  | .hbm, ⟨20, _⟩ => ⟨S16384, .i32⟩
  | .hbm, ⟨21, _⟩ => ⟨S_, .i32⟩
  | .hbm, ⟨22, _⟩ => ⟨S_, .i32⟩
  | .hbm, ⟨23, _⟩ => ⟨S16384, .i32⟩
  | .hbm, ⟨24, _⟩ => ⟨S16384, .i32⟩
  | .hbm, ⟨25, _⟩ => ⟨S16384, .i32⟩
  | .hbm, ⟨26, _⟩ => ⟨S_, .i32⟩
  | .hbm, ⟨27, _⟩ => ⟨S16384, .i32⟩
  | .hbm, ⟨28, _⟩ => ⟨S16384, .i1⟩
  | .hbm, ⟨29, _⟩ => ⟨S16384, .i32⟩
  | .hbm, ⟨30, _⟩ => ⟨S16384, .i32⟩
  | .hbm, ⟨31, _⟩ => ⟨S_, .i32⟩
  | .hbm, ⟨32, _⟩ => ⟨S16384, .i32⟩
  | .hbm, ⟨33, _⟩ => ⟨S16384, .i1⟩
  | .hbm, ⟨34, _⟩ => ⟨S16384, .i1⟩
  | .hbm, ⟨35, _⟩ => ⟨S_, .i32⟩
  | .hbm, ⟨36, _⟩ => ⟨S16384, .i32⟩
  | .hbm, ⟨37, _⟩ => ⟨S16384, .i32⟩
  | .hbm, ⟨38, _⟩ => ⟨S16384, .i32⟩
  | .hbm, ⟨39, _⟩ => ⟨S16384, .i32⟩
  | .hbm, ⟨40, _⟩ => ⟨S16384, .i32⟩
  | .hbm, ⟨41, _⟩ => ⟨S16384x1, .i32⟩
  | .hbm, ⟨42, _⟩ => ⟨S16384, .i32⟩
  | .hbm, ⟨43, _⟩ => ⟨S16384x1, .i32⟩
  | .hbm, ⟨44, _⟩ => ⟨S16384x16384, .i32⟩
  | .hbm, ⟨45, _⟩ => ⟨S_, .i32⟩
  | .hbm, ⟨46, _⟩ => ⟨S16384x16384, .i32⟩
  | .hbm, ⟨47, _⟩ => ⟨S16384x16384, .i1⟩
  | .hbm, ⟨48, _⟩ => ⟨S16384x16384, .i1⟩
  | .local _ .vmem, ⟨0, _⟩ => ⟨S2048x1, .i32⟩
  | .local _ .vmem, ⟨1, _⟩ => ⟨S2048x1, .i32⟩
  | .local _ .vmem, ⟨2, _⟩ => ⟨S2048x1, .i32⟩
  | .local _ .vmem, ⟨3, _⟩ => ⟨S2048x1, .i32⟩
  | .local _ .vmem, ⟨4, _⟩ => ⟨S2048x2048, .i32⟩
  | .local _ .vmem, ⟨5, _⟩ => ⟨S2048x2048, .i32⟩
  | _, _ => ⟨S16384x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_cst_3 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v8 : Ref sig .tc := ⟨.hbm, 19, rfl⟩
abbrev main_v9 : Ref sig .tc := ⟨.hbm, 20, rfl⟩
abbrev main_c : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_call1_v5 : Ref sig .tc := ⟨.hbm, 27, rfl⟩
abbrev main_call1_v6 : Ref sig .tc := ⟨.hbm, 28, rfl⟩
abbrev main_call1_v7 : Ref sig .tc := ⟨.hbm, 29, rfl⟩
abbrev main_call1_v8 : Ref sig .tc := ⟨.hbm, 30, rfl⟩
abbrev main_call1_c : Ref sig .tc := ⟨.hbm, 31, rfl⟩
abbrev main_call1_v9 : Ref sig .tc := ⟨.hbm, 32, rfl⟩
abbrev main_call1_v10 : Ref sig .tc := ⟨.hbm, 33, rfl⟩
abbrev main_call1_v11 : Ref sig .tc := ⟨.hbm, 34, rfl⟩
abbrev main_call1_c_0 : Ref sig .tc := ⟨.hbm, 35, rfl⟩
abbrev main_call1_v12 : Ref sig .tc := ⟨.hbm, 36, rfl⟩
abbrev main_call1_v13 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_c_4 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x2048 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  slices_S16384x4_S16384x2_0_2 : S16384x4.Slices ![0, 2] S16384x2
  reducesTo_S16384x2_S16384_d1 : S16384x2.ReducesTo [1] S16384
  h_S_ : 0 < S_.numel
  bcast_S_S16384 : S_.BroadcastsInDim S16384 (![] : Fin 0 → Fin S16384.rank)
  shapeCasts_S16384_S16384x1 : S16384.ShapeCasts S16384x1
  iota_S2048x2048_d1_w32 : S2048x2048.Iotas .tc 32 [1]
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x2048 : S2048x1.Broadcasts S2048x2048
  inb_S2048x2048_S2048x2048_0_0 : ∀ a, (![0, 0] : Fin 2 → Nat) a + S2048x2048.size a ≤ S2048x2048.size a
  h_S2048x2048 : 0 < S2048x2048.numel
  natLt_1_32 : 1 < 32
  bcast_S_S16384x16384 : S_.BroadcastsInDim S16384x16384 (![] : Fin 0 → Fin S16384x16384.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1.size a ≤ S16384x1.size a
  hwx0_0 : ∀ i : grid0.Coords, EltTy.bits .i32 = 32 ∨ (Rect.block (s := S16384x1) S2048x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S16384x1.size a
  hwx0_1 : ∀ i : grid0.Coords, EltTy.bits .i32 = 32 ∨ (Rect.block (s := S16384x1) S2048x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S16384x16384.size a
  hwx0_2 : ∀ i : grid0.Coords, EltTy.bits .i32 = 32 ∨ (Rect.block (s := S16384x16384) S2048x2048.size (cc0_transform_2 i) (hinb0_2 i)).WholeWords (EltTy.packing .i32)

variable [Facts₀]

abbrev win0_0 : Pipeline.Window sig grid0 :=
  Pipeline.Window.ofSpec (Memref.whole main_v13) S2048x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S2048x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x4 : Shape := ⟨2, ![16384, 4]⟩
abbrev S16384x2 : Shape := ⟨2, ![16384, 2]⟩
abbrev S_ : Shape := ⟨0, ![]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩

abbrev nBuf : Space → Nat
  | .hbm => 60
  | .vmem => 0
  | .smem => 0
  | _ => 0

abbrev bufTy : (tb : Table) → Fin (tcTables nBuf tb) → BufTy
  | .hbm, ⟨0, _⟩ => ⟨S16384x4, .f32⟩
  | .hbm, ⟨1, _⟩ => ⟨S16384x2, .f32⟩
  | .hbm, ⟨2, _⟩ => ⟨S_, .f32⟩
  | .hbm, ⟨3, _⟩ => ⟨S16384, .f32⟩
  | .hbm, ⟨4, _⟩ => ⟨S_, .f32⟩
  | .hbm, ⟨5, _⟩ => ⟨S16384, .f32⟩
  | .hbm, ⟨6, _⟩ => ⟨S16384, .f32⟩
  | .hbm, ⟨7, _⟩ => ⟨S16384, .f32⟩
  | .hbm, ⟨8, _⟩ => ⟨S_, .f32⟩
  | .hbm, ⟨9, _⟩ => ⟨S16384, .f32⟩
  | .hbm, ⟨10, _⟩ => ⟨S16384, .f32⟩
  | .hbm, ⟨11, _⟩ => ⟨S16384, .f32⟩
  | .hbm, ⟨12, _⟩ => ⟨S_, .i32⟩
  | .hbm, ⟨13, _⟩ => ⟨S_, .i32⟩
  | .hbm, ⟨14, _⟩ => ⟨S_, .f32⟩
  | .hbm, ⟨15, _⟩ => ⟨S16384, .f32⟩
  | .hbm, ⟨16, _⟩ => ⟨S16384, .f32⟩
  | .hbm, ⟨17, _⟩ => ⟨S_, .f32⟩
  | .hbm, ⟨18, _⟩ => ⟨S16384, .f32⟩
  | .hbm, ⟨19, _⟩ => ⟨S16384, .f32⟩
  | .hbm, ⟨20, _⟩ => ⟨S16384, .i32⟩
  | .hbm, ⟨21, _⟩ => ⟨S_, .i32⟩
  | .hbm, ⟨22, _⟩ => ⟨S_, .i32⟩
  | .hbm, ⟨23, _⟩ => ⟨S16384, .i32⟩
  | .hbm, ⟨24, _⟩ => ⟨S16384, .i32⟩
  | .hbm, ⟨25, _⟩ => ⟨S16384, .i32⟩
  | .hbm, ⟨26, _⟩ => ⟨S_, .i32⟩
  | .hbm, ⟨27, _⟩ => ⟨S16384, .i32⟩
  | .hbm, ⟨28, _⟩ => ⟨S16384, .i1⟩
  | .hbm, ⟨29, _⟩ => ⟨S16384, .i32⟩
  | .hbm, ⟨30, _⟩ => ⟨S16384, .i32⟩
  | .hbm, ⟨31, _⟩ => ⟨S_, .i32⟩
  | .hbm, ⟨32, _⟩ => ⟨S16384, .i32⟩
  | .hbm, ⟨33, _⟩ => ⟨S16384, .i1⟩
  | .hbm, ⟨34, _⟩ => ⟨S16384, .i1⟩
  | .hbm, ⟨35, _⟩ => ⟨S_, .i32⟩
  | .hbm, ⟨36, _⟩ => ⟨S16384, .i32⟩
  | .hbm, ⟨37, _⟩ => ⟨S16384, .i32⟩
  | .hbm, ⟨38, _⟩ => ⟨S16384, .i32⟩
  | .hbm, ⟨39, _⟩ => ⟨S16384, .i32⟩
  | .hbm, ⟨40, _⟩ => ⟨S16384, .i32⟩
  | .hbm, ⟨41, _⟩ => ⟨S16384, .i32⟩
  | .hbm, ⟨42, _⟩ => ⟨S1x16384, .i32⟩
  | .hbm, ⟨43, _⟩ => ⟨S16384x1, .i32⟩
  | .hbm, ⟨44, _⟩ => ⟨S16384x16384, .i32⟩
  | .hbm, ⟨45, _⟩ => ⟨S16384x16384, .i32⟩
  | .hbm, ⟨46, _⟩ => ⟨S16384x16384, .i1⟩
  | .hbm, ⟨47, _⟩ => ⟨S1x16384, .i32⟩
  | .hbm, ⟨48, _⟩ => ⟨S16384x1, .i32⟩
  | .hbm, ⟨49, _⟩ => ⟨S16384x16384, .i32⟩
  | .hbm, ⟨50, _⟩ => ⟨S16384x16384, .i32⟩
  | .hbm, ⟨51, _⟩ => ⟨S16384x16384, .i1⟩
  | .hbm, ⟨52, _⟩ => ⟨S16384x16384, .i1⟩
  | .hbm, ⟨53, _⟩ => ⟨S16384x16384, .i32⟩
  | .hbm, ⟨54, _⟩ => ⟨S16384x16384, .i32⟩
  | .hbm, ⟨55, _⟩ => ⟨S_, .i32⟩
  | .hbm, ⟨56, _⟩ => ⟨S16384x16384, .i32⟩
  | .hbm, ⟨57, _⟩ => ⟨S16384x16384, .i32⟩
  | .hbm, ⟨58, _⟩ => ⟨S16384x16384, .i1⟩
  | .hbm, ⟨59, _⟩ => ⟨S16384x16384, .i1⟩
  | _, _ => ⟨S16384x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_c_2 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v8 : Ref sig .tc := ⟨.hbm, 19, rfl⟩
abbrev main_v9 : Ref sig .tc := ⟨.hbm, 20, rfl⟩
abbrev main_c_3 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_call1_v5 : Ref sig .tc := ⟨.hbm, 27, rfl⟩
abbrev main_call1_v6 : Ref sig .tc := ⟨.hbm, 28, rfl⟩
abbrev main_call1_v7 : Ref sig .tc := ⟨.hbm, 29, rfl⟩
abbrev main_call1_v8 : Ref sig .tc := ⟨.hbm, 30, rfl⟩
abbrev main_call1_c : Ref sig .tc := ⟨.hbm, 31, rfl⟩
abbrev main_call1_v9 : Ref sig .tc := ⟨.hbm, 32, rfl⟩
abbrev main_call1_v10 : Ref sig .tc := ⟨.hbm, 33, rfl⟩
abbrev main_call1_v11 : Ref sig .tc := ⟨.hbm, 34, rfl⟩
abbrev main_call1_c_0 : Ref sig .tc := ⟨.hbm, 35, rfl⟩
abbrev main_call1_v12 : Ref sig .tc := ⟨.hbm, 36, rfl⟩
abbrev main_call1_v13 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_c_4 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩

abbrev nD : Nat := 1
abbrev τ : Topo := Topo.v7x

variable {F : FTy → Type} [FloatOps F]

class Facts₀ : Prop where
  slices_S16384x4_S16384x2_0_2 : S16384x4.Slices ![0, 2] S16384x2
  reducesTo_S16384x2_S16384_d1 : S16384x2.ReducesTo [1] S16384
  h_S_ : 0 < S_.numel
  bcast_S_S16384 : S_.BroadcastsInDim S16384 (![] : Fin 0 → Fin S16384.rank)
  bcast_S16384_S1x16384_1 : S16384.BroadcastsInDim S1x16384 (![1] : Fin 1 → Fin S1x16384.rank)
  bcast_S16384_S16384x1_0 : S16384.BroadcastsInDim S16384x1 (![0] : Fin 1 → Fin S16384x1.rank)
  bcast_S1x16384_S16384x16384_0_1 : S1x16384.BroadcastsInDim S16384x16384 (![0, 1] : Fin 2 → Fin S16384x16384.rank)
  bcast_S16384x1_S16384x16384_0_1 : S16384x1.BroadcastsInDim S16384x16384 (![0, 1] : Fin 2 → Fin S16384x16384.rank)
  bcast_S_S16384x16384 : S_.BroadcastsInDim S16384x16384 (![] : Fin 0 → Fin S16384x16384.rank)

variable [Facts₀]

class Facts : Prop extends Facts₀ where

variable [Facts]
-- ==== Proof.RefRun.lean ====
/-
  The reference program's run, read back as pure functions of its argument array.

  The reference computes, per row `r` of the 16384 boxes, a window size: with `mx`, `mn` the larger and the smaller of the
  row's last two entries, `p r = ⌊33 · √(mx / mn)⌋` (`pre`), clipped to `[33, 99]` and converted to a signed 32-bit integer
  (`ws`), halved by jnp's floor division (`half`: the truncating quotient, corrected by one where the signs differ and the
  remainder is not zero). The result (`out`) is the band mask: entry `(r, c)` is `1` when `r - half r ≤ c ≤ r + half r` as
  signed words, or when `r = c`.

  The program's `@main` calls three outlined functions (the clip, the floor division, and inside it the select); listed
  with the callees' operations inline at the call sites it is one straight line of 59 host operations (`ops`, `main_eq`),
  whose run is the library's `run_seq`; the result buffer then holds the operations' composed term, which is `out` of
  `half` of `ws` of the argument by unfolding.
-/
import proofs.«159770_j76948634075228_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The stages as pure functions -/

/-- Per row, `⌊33 · √(mx / mn)⌋` of the row's last two entries. -/
def pre (x : FVec F S16384x4 .f32) : FVec F S16384 .f32 :=
  Host.floor (mulf (broadcastInDim S16384 ![] bcast_S_S16384 (constant S_ .f32 0x42040000#32))
    (Host.sqrt (Host.divf
      (Host.reduce FloatOps.maximumf (extractStridedSlice S16384x2 ![0, 2] x slices_S16384x4_S16384x2_0_2) (constant S_ .f32 0xFF800000#32) reducesTo_S16384x2_S16384_d1 h_S_)
      (Host.reduce FloatOps.minimumf (extractStridedSlice S16384x2 ![0, 2] x slices_S16384x4_S16384x2_0_2) (constant S_ .f32 0x7F800000#32) reducesTo_S16384x2_S16384_d1 h_S_))))

/-- The window size: `p` clipped to `[33, 99]` (the bounds given as integers, converted), as a signed 32-bit integer. -/
def ws (p : FVec F S16384 .f32) : IVec S16384 32 :=
  fptosi 32 (minimumf (broadcastInDim S16384 ![] bcast_S_S16384 (sitofp .f32 (constantI S_ 32 99#32)))
    (maximumf (broadcastInDim S16384 ![] bcast_S_S16384 (sitofp .f32 (constantI S_ 32 33#32))) p))

/-- jnp's floor division by two: the truncating quotient, less one where the signs of the operands differ and the
    remainder is not zero. -/
def half (w : IVec S16384 32) : IVec S16384 32 :=
  select
    (andi (cmpi .ne (signi w) (broadcastInDim S16384 ![] bcast_S_S16384 (signi (id (constantI S_ 32 2#32)))))
      (cmpi .ne (Host.remsi w (broadcastInDim S16384 ![] bcast_S_S16384 (id (constantI S_ 32 2#32))))
        (broadcastInDim S16384 ![] bcast_S_S16384 (constantI S_ 32 0#32))))
    (subi (Host.divsi w (broadcastInDim S16384 ![] bcast_S_S16384 (id (constantI S_ 32 2#32))))
      (broadcastInDim S16384 ![] bcast_S_S16384 (constantI S_ 32 1#32)))
    (Host.divsi w (broadcastInDim S16384 ![] bcast_S_S16384 (id (constantI S_ 32 2#32))))

/-- The band mask from the half-widths, with the diagonal set. -/
def out (h : IVec S16384 32) : IVec S16384x16384 1 :=
  ori
    (andi
      (cmpi .sge
        (broadcastInDim S16384x16384 ![0, 1] bcast_S1x16384_S16384x16384_0_1 (broadcastInDim S1x16384 ![1] bcast_S16384_S1x16384_1 (iotaInDim S16384 32 0)))
        (broadcastInDim S16384x16384 ![0, 1] bcast_S16384x1_S16384x16384_0_1 (broadcastInDim S16384x1 ![0] bcast_S16384_S16384x1_0 (subi (iotaInDim S16384 32 0) h))))
      (cmpi .sle
        (broadcastInDim S16384x16384 ![0, 1] bcast_S1x16384_S16384x16384_0_1 (broadcastInDim S1x16384 ![1] bcast_S16384_S1x16384_1 (iotaInDim S16384 32 0)))
        (broadcastInDim S16384x16384 ![0, 1] bcast_S16384x1_S16384x16384_0_1 (broadcastInDim S16384x1 ![0] bcast_S16384_S16384x1_0 (addi (iotaInDim S16384 32 0) h)))))
    (cmpi .eq
      (addi (iotaInDim S16384x16384 32 0) (broadcastInDim S16384x16384 ![] bcast_S_S16384x16384 (constantI S_ 32 0#32)))
      (iotaInDim S16384x16384 32 1))

/-! ## The program as one straight line -/

/-- `@main`'s 59 operations in order, the three calls unfolded into their buffer records. -/
abbrev ops : List (HloOp τ sig (Elt F)) :=
  [ StableHlo.unary main_arg0 main_v0 ((extractStridedSlice S16384x2 ![0, 2] · slices_S16384x4_S16384x2_0_2) : (⟨S16384x4, .f32⟩ : BufTy).Contents (Elt F) → (⟨S16384x2, .f32⟩ : BufTy).Contents (Elt F)),
    StableHlo.nullary main_cst (constant S_ .f32 0xFF800000#32),
    StableHlo.binary main_v0 main_cst main_v1 ((fun x v => Host.reduce FloatOps.maximumf x v reducesTo_S16384x2_S16384_d1 h_S_) : (⟨S16384x2, .f32⟩ : BufTy).Contents (Elt F) → (⟨S_, .f32⟩ : BufTy).Contents (Elt F) → (⟨S16384, .f32⟩ : BufTy).Contents (Elt F)),
    StableHlo.nullary main_cst_0 (constant S_ .f32 0x7F800000#32),
    StableHlo.binary main_v0 main_cst_0 main_v2 ((fun x v => Host.reduce FloatOps.minimumf x v reducesTo_S16384x2_S16384_d1 h_S_) : (⟨S16384x2, .f32⟩ : BufTy).Contents (Elt F) → (⟨S_, .f32⟩ : BufTy).Contents (Elt F) → (⟨S16384, .f32⟩ : BufTy).Contents (Elt F)),
    StableHlo.binary main_v1 main_v2 main_v3 (Host.divf : (⟨S16384, .f32⟩ : BufTy).Contents (Elt F) → (⟨S16384, .f32⟩ : BufTy).Contents (Elt F) → (⟨S16384, .f32⟩ : BufTy).Contents (Elt F)),
    StableHlo.unary main_v3 main_v4 (Host.sqrt : (⟨S16384, .f32⟩ : BufTy).Contents (Elt F) → (⟨S16384, .f32⟩ : BufTy).Contents (Elt F)),
    StableHlo.nullary main_cst_1 (constant S_ .f32 0x42040000#32),
    StableHlo.unary main_cst_1 main_v5 (broadcastInDim S16384 ![] bcast_S_S16384 : (⟨S_, .f32⟩ : BufTy).Contents (Elt F) → (⟨S16384, .f32⟩ : BufTy).Contents (Elt F)),
    StableHlo.binary main_v5 main_v4 main_v6 (mulf : (⟨S16384, .f32⟩ : BufTy).Contents (Elt F) → (⟨S16384, .f32⟩ : BufTy).Contents (Elt F) → (⟨S16384, .f32⟩ : BufTy).Contents (Elt F)),
    StableHlo.unary main_v6 main_v7 (Host.floor : (⟨S16384, .f32⟩ : BufTy).Contents (Elt F) → (⟨S16384, .f32⟩ : BufTy).Contents (Elt F)),
    StableHlo.nullary main_c (constantI S_ 32 33#32),
    StableHlo.nullary main_c_2 (constantI S_ 32 99#32),
    TRef.unary (.of main_c) main_call0.v0 (sitofp .f32),
    TRef.unary main_call0.v0 main_call0.v1 (broadcastInDim S16384 ![] bcast_S_S16384),
    TRef.binary main_call0.v1 (.of main_v7) main_call0.v2 maximumf,
    TRef.unary (.of main_c_2) main_call0.v3 (sitofp .f32),
    TRef.unary main_call0.v3 main_call0.v4 (broadcastInDim S16384 ![] bcast_S_S16384),
    TRef.binary main_call0.v4 main_call0.v2 main_call0.v5 minimumf,
    StableHlo.unary main_v8 main_v9 (fptosi 32 : (⟨S16384, .f32⟩ : BufTy).Contents (Elt F) → (⟨S16384, .i32⟩ : BufTy).Contents (Elt F)),
    StableHlo.nullary main_c_3 (constantI S_ 32 2#32),
    TRef.unary (.of main_c_3) main_call1.v0 id,
    TRef.unary main_call1.v0 main_call1.v1 (broadcastInDim S16384 ![] bcast_S_S16384),
    TRef.binary (.of main_v9) main_call1.v1 main_call1.v2 Host.divsi,
    TRef.unary (.of main_v9) main_call1.v3 signi,
    TRef.unary main_call1.v0 main_call1.v4 signi,
    TRef.unary main_call1.v4 main_call1.v5 (broadcastInDim S16384 ![] bcast_S_S16384),
    TRef.binary main_call1.v3 main_call1.v5 main_call1.v6 (cmpi .ne),
    TRef.unary main_call1.v0 main_call1.v7 (broadcastInDim S16384 ![] bcast_S_S16384),
    TRef.binary (.of main_v9) main_call1.v7 main_call1.v8 Host.remsi,
    TRef.nullary main_call1.c (constantI S_ 32 0#32),
    TRef.unary main_call1.c main_call1.v9 (broadcastInDim S16384 ![] bcast_S_S16384),
    TRef.binary main_call1.v8 main_call1.v9 main_call1.v10 (cmpi .ne),
    TRef.binary main_call1.v6 main_call1.v10 main_call1.v11 andi,
    TRef.nullary main_call1.c_0 (constantI S_ 32 1#32),
    TRef.unary main_call1.c_0 main_call1.v12 (broadcastInDim S16384 ![] bcast_S_S16384),
    TRef.binary main_call1.v2 main_call1.v12 main_call1.v13 subi,
    TRef.ternary main_call1.v11 main_call1.v13 main_call1.v2 main_call1.call0.v0 select,
    StableHlo.nullary main_v11 (iotaInDim S16384 32 0),
    StableHlo.binary main_v11 main_v10 main_v12 (subi : (⟨S16384, .i32⟩ : BufTy).Contents (Elt F) → (⟨S16384, .i32⟩ : BufTy).Contents (Elt F) → (⟨S16384, .i32⟩ : BufTy).Contents (Elt F)),
    StableHlo.binary main_v11 main_v10 main_v13 (addi : (⟨S16384, .i32⟩ : BufTy).Contents (Elt F) → (⟨S16384, .i32⟩ : BufTy).Contents (Elt F) → (⟨S16384, .i32⟩ : BufTy).Contents (Elt F)),
    StableHlo.unary main_v11 main_v14 (broadcastInDim S1x16384 ![1] bcast_S16384_S1x16384_1 : (⟨S16384, .i32⟩ : BufTy).Contents (Elt F) → (⟨S1x16384, .i32⟩ : BufTy).Contents (Elt F)),
    StableHlo.unary main_v12 main_v15 (broadcastInDim S16384x1 ![0] bcast_S16384_S16384x1_0 : (⟨S16384, .i32⟩ : BufTy).Contents (Elt F) → (⟨S16384x1, .i32⟩ : BufTy).Contents (Elt F)),
    StableHlo.unary main_v14 main_v16 (broadcastInDim S16384x16384 ![0, 1] bcast_S1x16384_S16384x16384_0_1 : (⟨S1x16384, .i32⟩ : BufTy).Contents (Elt F) → (⟨S16384x16384, .i32⟩ : BufTy).Contents (Elt F)),
    StableHlo.unary main_v15 main_v17 (broadcastInDim S16384x16384 ![0, 1] bcast_S16384x1_S16384x16384_0_1 : (⟨S16384x1, .i32⟩ : BufTy).Contents (Elt F) → (⟨S16384x16384, .i32⟩ : BufTy).Contents (Elt F)),
    StableHlo.binary main_v16 main_v17 main_v18 (cmpi .sge : (⟨S16384x16384, .i32⟩ : BufTy).Contents (Elt F) → (⟨S16384x16384, .i32⟩ : BufTy).Contents (Elt F) → (⟨S16384x16384, .i1⟩ : BufTy).Contents (Elt F)),
    StableHlo.unary main_v11 main_v19 (broadcastInDim S1x16384 ![1] bcast_S16384_S1x16384_1 : (⟨S16384, .i32⟩ : BufTy).Contents (Elt F) → (⟨S1x16384, .i32⟩ : BufTy).Contents (Elt F)),
    StableHlo.unary main_v13 main_v20 (broadcastInDim S16384x1 ![0] bcast_S16384_S16384x1_0 : (⟨S16384, .i32⟩ : BufTy).Contents (Elt F) → (⟨S16384x1, .i32⟩ : BufTy).Contents (Elt F)),
    StableHlo.unary main_v19 main_v21 (broadcastInDim S16384x16384 ![0, 1] bcast_S1x16384_S16384x16384_0_1 : (⟨S1x16384, .i32⟩ : BufTy).Contents (Elt F) → (⟨S16384x16384, .i32⟩ : BufTy).Contents (Elt F)),
    StableHlo.unary main_v20 main_v22 (broadcastInDim S16384x16384 ![0, 1] bcast_S16384x1_S16384x16384_0_1 : (⟨S16384x1, .i32⟩ : BufTy).Contents (Elt F) → (⟨S16384x16384, .i32⟩ : BufTy).Contents (Elt F)),
    StableHlo.binary main_v21 main_v22 main_v23 (cmpi .sle : (⟨S16384x16384, .i32⟩ : BufTy).Contents (Elt F) → (⟨S16384x16384, .i32⟩ : BufTy).Contents (Elt F) → (⟨S16384x16384, .i1⟩ : BufTy).Contents (Elt F)),
    StableHlo.binary main_v18 main_v23 main_v24 (andi : (⟨S16384x16384, .i1⟩ : BufTy).Contents (Elt F) → (⟨S16384x16384, .i1⟩ : BufTy).Contents (Elt F) → (⟨S16384x16384, .i1⟩ : BufTy).Contents (Elt F)),
    StableHlo.nullary main_v25 (iotaInDim S16384x16384 32 0),
    StableHlo.nullary main_v26 (iotaInDim S16384x16384 32 1),
    StableHlo.nullary main_c_4 (constantI S_ 32 0#32),
    StableHlo.unary main_c_4 main_v27 (broadcastInDim S16384x16384 ![] bcast_S_S16384x16384 : (⟨S_, .i32⟩ : BufTy).Contents (Elt F) → (⟨S16384x16384, .i32⟩ : BufTy).Contents (Elt F)),
    StableHlo.binary main_v25 main_v27 main_v28 (addi : (⟨S16384x16384, .i32⟩ : BufTy).Contents (Elt F) → (⟨S16384x16384, .i32⟩ : BufTy).Contents (Elt F) → (⟨S16384x16384, .i32⟩ : BufTy).Contents (Elt F)),
    StableHlo.binary main_v28 main_v26 main_v29 (cmpi .eq : (⟨S16384x16384, .i32⟩ : BufTy).Contents (Elt F) → (⟨S16384x16384, .i32⟩ : BufTy).Contents (Elt F) → (⟨S16384x16384, .i1⟩ : BufTy).Contents (Elt F)),
    StableHlo.binary main_v24 main_v29 main_v30 (ori : (⟨S16384x16384, .i1⟩ : BufTy).Contents (Elt F) → (⟨S16384x16384, .i1⟩ : BufTy).Contents (Elt F) → (⟨S16384x16384, .i1⟩ : BufTy).Contents (Elt F)) ]

set_option maxRecDepth 2048 in
/-- `@main` is that straight line: the callees' definitions unfolded at their calls, sequencing reassociated. -/
theorem main_eq (c : Dev nD) : main (F := F) c = seq ops := by
  simp only [main, fn_clip.body, fn_floor_divide.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., nullary_bufs_sub .., binary_bufs_sub .., nullary_bufs_sub .., binary_bufs_sub .., binary_bufs_sub .., unary_bufs_sub .., nullary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., binary_bufs_sub .., binary_bufs_sub .., unary_bufs_sub .., unary_bufs_sub .., unary_bufs_sub .., unary_bufs_sub .., binary_bufs_sub .., unary_bufs_sub .., unary_bufs_sub .., unary_bufs_sub .., unary_bufs_sub .., binary_bufs_sub .., binary_bufs_sub .., nullary_bufs_sub .., nullary_bufs_sub .., nullary_bufs_sub .., unary_bufs_sub .., binary_bufs_sub .., binary_bufs_sub .., binary_bufs_sub ..⟩

/-- What the result buffer holds after the line, for any contents `V` at its start. -/
theorem result_eq (V : Valuation τ sig (Elt F)) :
    after ops V (main_v30 : DevRef τ sig) = out (half (ws (pre (V (main_arg0 : DevRef τ sig))))) := by
  after_results_simp
  rfl

/-- The argument buffer is written by no operation. -/
theorem arg0_eq (V : Valuation τ sig (Elt F)) :
    after ops V (main_arg0 : DevRef τ sig) = V (main_arg0 : DevRef τ sig) := by
  after_results_simp

/-- Every weakly fair execution of `@main` terminates with the result at `out (half (ws (pre x)))` of the argument
    array `x`, the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v30) = out (half (ws (pre (m ((c.tc : Thread nD τ).loc main_arg0)))))
      ∧ r.2.mem ((c.tc : Thread nD τ).loc main_arg0) = m ((c.tc : Thread nD τ).loc main_arg0) :=
  (θ_run defs _ _).mono (fun _ h c => ⟨(h c main_v30).trans (result_eq _), (h c main_arg0).trans (arg0_eq _)⟩)
    (run_seq scopedRefs_eq scopedSems_eq defs main (fun _ => ops) main_eq (fun _ => ops_sub) m ρ)

end Cert.ReferenceIdeal.RefRun

end
-- ==== Proof.Band.lean ====
/-
  The band mask as a function of the per-row half-width, and the arithmetic both programs' results rest on.

  For a row `r` and a column `c` (both below 16384) and a half-width word `h`, the band bit is
  `(c ≥ r - h) ∧ (c ≤ r + h)`, the comparisons signed and the sums wrapping 32-bit words (`bandBit`). The half-width of a
  row is `⌊ws / 2⌋` (jnp's floor division: `halfOf`) of the window size `ws`, the row's real score clipped to `[33, 99]`
  and truncated to a signed word (`wsOf`). Whatever the score — any extended real — the clip leaves a real number in
  `[33, 99]`, its truncation is one of the 67 integers there, and so the half-width is a word in `[16, 49]`
  (`halfOf_wsOf_bounds`): subtracting it from or adding it to a row number below 16384 never wraps, and the diagonal
  `r = c` always lies inside the band. Hence setting the diagonal changes nothing (`bandBit_or_diag`), which is the
  one way the reference differs from the kernel; and widening the bit to a word and testing the word against zero
  gives the bit back (`ne_zero_setWidth`), which is what the kernel's program does after its region.
-/
import Idealize.ShloMosaic.PureOps.Ideal
import Idealize.ShloMosaic.Lib.ValueIdx

noncomputable section

namespace Cert.Band

open Idealize.ShloMosaic

/-! ## The band bit -/

/-- Column `c` lies within `h` of row `r`: the two signed comparisons of 32-bit words, conjoined. -/
def bandBit (h : BitVec 32) (r c : Nat) : BitVec 1 :=
  IntOp.andi (IntOp.cmpi .sge (BitVec.ofNat 32 c) (IntOp.subi (BitVec.ofNat 32 r) h))
    (IntOp.cmpi .sle (BitVec.ofNat 32 c) (IntOp.addi (BitVec.ofNat 32 r) h))

/-- A bit widened to a word is not zero exactly when the bit is set. -/
theorem ne_zero_setWidth (b : BitVec 1) : IntOp.cmpi .ne (b.setWidth 32) 0#32 = b := by
  revert b; decide

/-- With a half-width in `[0, 49]` and row and column below 16384, the diagonal is inside the band: ORing the
    diagonal bit in changes nothing. -/
theorem bandBit_or_diag (h : BitVec 32) (h0 : 0 ≤ h.toInt) (h1 : h.toInt ≤ 49) (r c : Nat) (hr : r < 16384) (hc : c < 16384) :
    IntOp.ori (bandBit h r c) (IntOp.cmpi .eq (IntOp.addi (BitVec.ofNat 32 r) 0#32) (BitVec.ofNat 32 c)) = bandBit h r c := by
  have hn : h.toNat ≤ 49 := by
    have e := BitVec.toInt_eq_toNat_cond h
    have hl := h.isLt
    split at e <;> omega
  by_cases hrc : r = c
  · subst hrc
    have hb : bandBit h r r = 1#1 := by
      unfold bandBit IntOp.andi IntOp.cmpi IntOp.subi IntOp.addi
      have e1 : (BitVec.ofNat 32 r - h).sle (BitVec.ofNat 32 r) = true := by
        rw [BitVec.sle_eq_decide, decide_eq_true_eq, BitVec.toInt_eq_toNat_cond, BitVec.toInt_eq_toNat_cond]
        simp only [BitVec.toNat_sub, BitVec.toNat_ofNat]
        split <;> split <;> omega
      have e2 : (BitVec.ofNat 32 r).sle (BitVec.ofNat 32 r + h) = true := by
        rw [BitVec.sle_eq_decide, decide_eq_true_eq, BitVec.toInt_eq_toNat_cond, BitVec.toInt_eq_toNat_cond]
        simp only [BitVec.toNat_add, BitVec.toNat_ofNat]
        split <;> split <;> omega
      simp only [e1, e2]; decide
    rw [hb]; generalize IntOp.cmpi .eq _ _ = b; revert b; decide
  · have hne : IntOp.cmpi .eq (IntOp.addi (BitVec.ofNat 32 r) 0#32) (BitVec.ofNat 32 c) = 0#1 := by
      unfold IntOp.cmpi IntOp.addi
      have : (BitVec.ofNat 32 r + 0#32 == BitVec.ofNat 32 c) = false := by
        rw [BitVec.add_zero, beq_eq_false_iff_ne]
        intro e
        have := congrArg BitVec.toNat e
        simp only [BitVec.toNat_ofNat] at this
        omega
      simp only [this]; decide
    rw [hne]; generalize bandBit h r c = b; revert b; decide

/-! ## The window size and its half -/

/-- The window size of a row's score `p`: clipped to `[lo, hi]`, truncated to a signed word. -/
def wsOf (lo hi p : EReal) : BitVec 32 := Ideal.fptosi 32 (min hi (max lo p))

/-- jnp's floor division of a word by two: the truncating quotient, less one where the dividend's sign differs from
    the divisor's and the remainder is not zero. -/
def halfOf (w : BitVec 32) : BitVec 32 :=
  Scalar.select
    (IntOp.andi (IntOp.cmpi .ne ((if w = 0 then 0 else if w.msb then -1 else 1 : BitVec 32))
                               ((if (2#32 : BitVec 32) = 0 then 0 else if (2#32 : BitVec 32).msb then -1 else 1 : BitVec 32)))
      (IntOp.cmpi .ne (IntOp.remsi .host w 2#32) 0#32))
    (IntOp.subi (IntOp.divsi .host w 2#32) 1#32)
    (IntOp.divsi .host w 2#32)

/-- The clip leaves a real number between the bounds, so its truncation is a natural number between them. -/
theorem wsOf_eq_ofNat (p : EReal) : ∃ n : Nat, 33 ≤ n ∧ n ≤ 99 ∧ wsOf ((33 : ℝ) : EReal) ((99 : ℝ) : EReal) p = BitVec.ofNat 32 n := by
  have hlo : ((33 : ℝ) : EReal) ≤ min ((99 : ℝ) : EReal) (max ((33 : ℝ) : EReal) p) :=
    le_min (by exact_mod_cast (by norm_num : (33 : ℝ) ≤ 99)) (le_max_left _ _)
  have hhi : min ((99 : ℝ) : EReal) (max ((33 : ℝ) : EReal) p) ≤ ((99 : ℝ) : EReal) := min_le_left _ _
  obtain ⟨y, hy⟩ : ∃ y : ℝ, min ((99 : ℝ) : EReal) (max ((33 : ℝ) : EReal) p) = (y : EReal) := by
    induction h : min ((99 : ℝ) : EReal) (max ((33 : ℝ) : EReal) p) using EReal.rec with
    | bot => rw [h] at hlo; exact absurd hlo (by simp)
    | top => rw [h] at hhi; exact absurd hhi (by simp)
    | coe y => exact ⟨y, rfl⟩
  rw [hy] at hlo hhi
  have hlo' : (33 : ℝ) ≤ y := by exact_mod_cast hlo
  have hhi' : y ≤ 99 := by exact_mod_cast hhi
  have hf0 : (33 : ℤ) ≤ ⌊y⌋ := Int.le_floor.mpr (by exact_mod_cast hlo')
  have hf1 : ⌊y⌋ ≤ (99 : ℤ) := by
    have : (⌊y⌋ : ℝ) ≤ 99 := le_trans (Int.floor_le y) hhi'
    exact_mod_cast this
  refine ⟨⌊y⌋.toNat, by omega, by omega, ?_⟩
  unfold wsOf Ideal.fptosi
  rw [hy]
  show BitVec.ofInt 32 (max _ (min _ (if 0 ≤ y then ⌊y⌋ else ⌈y⌉))) = _
  rw [if_pos (by linarith)]
  have : max (-((2 ^ (32 - 1) : ℕ) : ℤ)) (min (((2 ^ (32 - 1) : ℕ) : ℤ) - 1) ⌊y⌋) = ((⌊y⌋.toNat : ℕ) : ℤ) := by
    norm_num; omega
  rw [this, BitVec.ofInt_natCast]

/-- Half of each of the 67 possible window sizes is a word in `[16, 49]`. -/
theorem halfOf_ofNat_bounds : ∀ k : Fin 67, 0 ≤ (halfOf (BitVec.ofNat 32 (k.val + 33))).toInt ∧ (halfOf (BitVec.ofNat 32 (k.val + 33))).toInt ≤ 49 := by
  decide

/-- Whatever the score, the half-width is a word in `[0, 49]`. -/
theorem halfOf_wsOf_bounds (p : EReal) :
    0 ≤ (halfOf (wsOf ((33 : ℝ) : EReal) ((99 : ℝ) : EReal) p)).toInt ∧ (halfOf (wsOf ((33 : ℝ) : EReal) ((99 : ℝ) : EReal) p)).toInt ≤ 49 := by
  obtain ⟨n, h0, h1, e⟩ := wsOf_eq_ofNat p
  rw [e]
  have := halfOf_ofNat_bounds ⟨n - 33, by omega⟩
  simpa [show n - 33 + 33 = n by omega] using this

/-! ## The whole mask -/

/-- The mask both programs compute, as one function of the per-row scores `p`: entry `(r, c)` is the band bit of row
    `r`'s half-width. -/
def maskOf (p : (⟨1, ![16384]⟩ : Shape).Idx → EReal) : (⟨2, ![16384, 16384]⟩ : Shape).Idx → BitVec 1 :=
  fun j => bandBit (halfOf (wsOf ((33 : ℝ) : EReal) ((99 : ℝ) : EReal) (p (ValueIdx.ix1 (⟨(j 0).val, ValueIdx.idx2_lt0 j⟩ : Fin 16384)))))
    (j 0).val (j 1).val

/-! ## The two spellings of the clip's bounds -/

/-- The float words `0x42040000` and `0x42C60000` denote 33 and 99. -/
theorem ofBits_33 : Ideal.ofBits .f32 0x42040000#32 = ((33 : ℝ) : EReal) := by
  simp [Ideal.ofBits, Ideal.ieee]; rw [← EReal.coe_mul]; norm_num
theorem ofBits_99 : Ideal.ofBits .f32 0x42C60000#32 = ((99 : ℝ) : EReal) := by
  simp [Ideal.ofBits, Ideal.ieee]; rw [← EReal.coe_mul]; norm_num

/-- The integers 33 and 99 converted to floats are 33 and 99. -/
theorem sitofp_33 : (((33#32 : BitVec 32).toInt : ℝ) : EReal) = ((33 : ℝ) : EReal) := by
  have : (33#32 : BitVec 32).toInt = 33 := by decide
  rw [this]; norm_num
theorem sitofp_99 : (((99#32 : BitVec 32).toInt : ℝ) : EReal) = ((99 : ℝ) : EReal) := by
  have : (99#32 : BitVec 32).toInt = 99 := by decide
  rw [this]; norm_num

end Cert.Band

end
-- ==== Proof.RefValue.lean ====
/-
  The reference's result is the band mask of the scores.

  Read at an index `(r, c)`, the reference's last stage is the band bit of row `r` — the column numbers broadcast along
  the rows compared with the two edges `r - half r` and `r + half r` broadcast along the columns — ORed with the
  diagonal bit `r = c`. The half-width is the scalar floor division of the scalar window size of the row's score
  (`half_apply`; the clip's bounds are the integers 33 and 99 converted to floats, which are 33 and 99), a word in
  `[0, 49]` whatever the score, so the diagonal already lies inside the band and the OR changes nothing
  (`Cert.Band.bandBit_or_diag`): the result is `Cert.Band.maskOf` of the scores.
-/
import proofs.«159770_j76948634075228_2_alg».proof.Proof.RefRun
import proofs.«159770_j76948634075228_2_alg».proof.Proof.Band
import Idealize.ShloMosaic.Lib.ValueIdx
import Idealize.ShloMosaic.PureOps.Ideal

set_option maxRecDepth 16384

noncomputable section

namespace Cert.ReferenceIdeal.RefValue

open Cert.ReferenceIdeal Cert.ReferenceIdeal.Gen Cert.ReferenceIdeal.RefRun Idealize.ShloMosaic Idealize.ShloMosaic.TcCoe Idealize.SL.Sem
open Idealize.ShloMosaic.ValueIdx

/-- The half-width of a row, read at the row: the scalar floor division of the scalar window size of the row's score. -/
theorem half_apply (p : FVec Ideal S16384 .f32) (r : Fin 16384) :
    half (ws (F := Ideal) p) (ix1 r) = Cert.Band.halfOf (Cert.Band.wsOf ((33 : ℝ) : EReal) ((99 : ℝ) : EReal) (p (ix1 r))) := by
  rw [← Cert.Band.sitofp_33, ← Cert.Band.sitofp_99]
  rfl

/-- A per-row vector broadcast along the columns, read at `(r, c)`, is the vector at `r`. -/
theorem along_columns (v : IVec S16384 32) (j : S16384x16384.Idx) :
    broadcastInDim S16384x16384 ![0, 1] bcast_S16384x1_S16384x16384_0_1 (broadcastInDim S16384x1 ![0] bcast_S16384_S16384x1_0 v) j
      = v (ix1 (⟨(j 0).val, idx2_lt0 j⟩ : Fin 16384)) := by
  unfold broadcastInDim
  refine congrArg v (funext fun a => ?_)
  match a with
  | ⟨0, _⟩ => rfl

/-- A per-column vector broadcast along the rows, read at `(r, c)`, is the vector at `c`. -/
theorem along_rows (v : IVec S16384 32) (j : S16384x16384.Idx) :
    broadcastInDim S16384x16384 ![0, 1] bcast_S1x16384_S16384x16384_0_1 (broadcastInDim S1x16384 ![1] bcast_S16384_S1x16384_1 v) j
      = v (ix1 (⟨(j 1).val, idx2_lt1 j⟩ : Fin 16384)) := by
  unfold broadcastInDim
  refine congrArg v (funext fun a => ?_)
  match a with
  | ⟨0, _⟩ => rfl

/-- The reference's last stage is the band mask of the scores. -/
theorem mask_eq (p : FVec Ideal S16384 .f32) : out (half (ws (F := Ideal) p)) = Cert.Band.maskOf p := by
  funext j
  have hb := Cert.Band.halfOf_wsOf_bounds (p (ix1 (⟨(j 0).val, idx2_lt0 j⟩ : Fin 16384)))
  show IntOp.ori
      (IntOp.andi
        (IntOp.cmpi .sge
          (broadcastInDim S16384x16384 ![0, 1] bcast_S1x16384_S16384x16384_0_1 (broadcastInDim S1x16384 ![1] bcast_S16384_S1x16384_1 (iotaInDim S16384 32 0)) j)
          (broadcastInDim S16384x16384 ![0, 1] bcast_S16384x1_S16384x16384_0_1 (broadcastInDim S16384x1 ![0] bcast_S16384_S16384x1_0 (subi (iotaInDim S16384 32 0) (half (ws p)))) j))
        (IntOp.cmpi .sle
          (broadcastInDim S16384x16384 ![0, 1] bcast_S1x16384_S16384x16384_0_1 (broadcastInDim S1x16384 ![1] bcast_S16384_S1x16384_1 (iotaInDim S16384 32 0)) j)
          (broadcastInDim S16384x16384 ![0, 1] bcast_S16384x1_S16384x16384_0_1 (broadcastInDim S16384x1 ![0] bcast_S16384_S16384x1_0 (addi (iotaInDim S16384 32 0) (half (ws p)))) j)))
      (IntOp.cmpi .eq (IntOp.addi (BitVec.ofNat 32 (j 0).val) 0#32) (BitVec.ofNat 32 (j 1).val)) = _
  rw [along_rows, along_columns, along_columns]
  show IntOp.ori (Cert.Band.bandBit (half (ws p) (ix1 (⟨(j 0).val, idx2_lt0 j⟩ : Fin 16384))) (j 0).val (j 1).val) _ = _
  rw [half_apply]
  exact Cert.Band.bandBit_or_diag _ hb.1 hb.2 _ _ (idx2_lt0 j) (idx2_lt1 j)

end Cert.ReferenceIdeal.RefValue

end
-- ==== Proof.KernelValue.lean ====
/-
  What the kernel's program leaves in its result buffer, as one function of its argument array.

  Before its region the program computes on the host, per row `r` of the 16384 boxes, the score `p r = ⌊33 · √(mx / mn)⌋`
  of the row's last two entries (`pre`), the window size (`wsK`: the score clipped to `[33, 99]`, the bounds given as float
  words, truncated to a signed word), its half by jnp's floor division (`half`), and the two columns `lo r = r - half r` and
  `hi r = r + half r` (`lo`, `hi`, each of shape 16384 × 1): `entry_lo`, `entry_hi` read them off the host operations.

  The region runs over an 8 × 8 grid. At point `(bi, bj)` it loads rows `bi·2048 …` of `lo` and `hi` and stores the
  2048 × 2048 block whose entry `(a, b)` is the word `1` when `lo ≤ bj·2048 + b ≤ hi` at row `a` (signed), else `0`
  (`payload_apply`). Block `(bi, bj)` of the output is written at that point only, and the 64 blocks tile the
  16384 × 16384 array (`cover`), so the array ends holding, at `(r, c)`, that word for row `r` and column `c` (`bandWord`,
  `written_eq`, `array_eq`).

  After the region the host tests every word against zero; a bit widened to a word is not zero exactly when the bit is
  set, so the result is the band mask `Cert.Band.maskOf` of the scores (`result_eq`, `run`).
-/
import proofs.«159770_j76948634075228_2_alg».proof.Proof.FrameKernelIdeal
import proofs.«159770_j76948634075228_2_alg».proof.Proof.Band
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal

set_option maxRecDepth 16384

noncomputable section

namespace Cert.KernelIdeal.KValue

open Cert.KernelIdeal Cert.KernelIdeal.Gen Cert.KernelIdeal.GenP Idealize.ShloMosaic Idealize.ShloMosaic.TcCoe Idealize.SL.Sem
open Idealize.ShloMosaic.ValueIdx Idealize.ShloMosaic.StableHlo
open Idealize.ShloMosaic.Pipeline (Dat)

variable {F : FTy → Type} [FloatOps F]

/-! ## The host stages before the region, as pure functions -/

/-- Per row, `⌊33 · √(mx / mn)⌋` of the row's last two entries. -/
def pre (x : FVec F S16384x4 .f32) : FVec F S16384 .f32 :=
  Host.floor (mulf (broadcastInDim S16384 ![] bcast_S_S16384 (constant S_ .f32 0x42040000#32))
    (Host.sqrt (Host.divf
      (Host.reduce FloatOps.maximumf (extractStridedSlice S16384x2 ![0, 2] x slices_S16384x4_S16384x2_0_2) (constant S_ .f32 0xFF800000#32) reducesTo_S16384x2_S16384_d1 h_S_)
      (Host.reduce FloatOps.minimumf (extractStridedSlice S16384x2 ![0, 2] x slices_S16384x4_S16384x2_0_2) (constant S_ .f32 0x7F800000#32) reducesTo_S16384x2_S16384_d1 h_S_))))

/-- The window size: the score clipped to `[33, 99]` (the bounds given as float words), as a signed 32-bit integer. -/
def wsK (p : FVec F S16384 .f32) : IVec S16384 32 :=
  fptosi 32 (minimumf (broadcastInDim S16384 ![] bcast_S_S16384 (id (constant S_ .f32 0x42C60000#32)))
    (maximumf (broadcastInDim S16384 ![] bcast_S_S16384 (id (constant S_ .f32 0x42040000#32))) p))

/-- jnp's floor division by two. -/
def half (w : IVec S16384 32) : IVec S16384 32 :=
  select
    (andi (cmpi .ne (signi w) (broadcastInDim S16384 ![] bcast_S_S16384 (signi (id (constantI S_ 32 2#32)))))
      (cmpi .ne (Host.remsi w (broadcastInDim S16384 ![] bcast_S_S16384 (id (constantI S_ 32 2#32))))
        (broadcastInDim S16384 ![] bcast_S_S16384 (constantI S_ 32 0#32))))
    (subi (Host.divsi w (broadcastInDim S16384 ![] bcast_S_S16384 (id (constantI S_ 32 2#32))))
      (broadcastInDim S16384 ![] bcast_S_S16384 (constantI S_ 32 1#32)))
    (Host.divsi w (broadcastInDim S16384 ![] bcast_S_S16384 (id (constantI S_ 32 2#32))))

/-- The band's two edges per row, as columns. -/
def lo (h : IVec S16384 32) : IVec S16384x1 32 := shapeCast S16384x1 (subi (iotaInDim S16384 32 0) h) shapeCasts_S16384_S16384x1
def hi (h : IVec S16384 32) : IVec S16384x1 32 := shapeCast S16384x1 (addi (iotaInDim S16384 32 0) h) shapeCasts_S16384_S16384x1

variable (m : (ℓ : Loc nD τ sig) → Buf (Elt F) ℓ) (ρ : Dev nD → PrngReg)

/-- The region finds the two columns computed from the argument array. -/
theorem entry_lo (c : Dev nD) :
    (V m c main_v13 : S16384x1.Idx → BitVec 32) = lo (half (wsK (pre (m ((c : Thread nD τ).loc main_arg0))))) := by
  dsimp only [V, V0]
  simp only [hostOps0, hostOps0_1, hostOps0_2, hostOps0_3, hostOps0_4, List.flatten_cons, List.flatten_nil, List.append_nil, List.cons_append,
    List.nil_append]
  after_results_simp
  rfl
theorem entry_hi (c : Dev nD) :
    (V m c main_v15 : S16384x1.Idx → BitVec 32) = hi (half (wsK (pre (m ((c : Thread nD τ).loc main_arg0))))) := by
  dsimp only [V, V0]
  simp only [hostOps0, hostOps0_1, hostOps0_2, hostOps0_3, hostOps0_4, List.flatten_cons, List.flatten_nil, List.append_nil, List.cons_append,
    List.nil_append]
  after_results_simp
  rfl

/-! ## The body's stored value at an index -/

/-- A 2048 × 1 column broadcast along the lanes, read at `(a, b)`, is the column at row `a`. -/
theorem broadcast_col (v : IVec S2048x1 32) (a b : Fin 2048) :
    broadcastTo S2048x2048 v broadcasts_S2048x1_S2048x2048 (ix2 a b) = v (ix2 a (0 : Fin 1)) := by
  refine broadcastTo_apply v _ (ix2 a b) (ix2 a (0 : Fin 1)) ?_
  intro d
  match d with
  | ⟨0, _⟩ => rfl
  | ⟨1, _⟩ => rfl

/-- The column number the body computes at lane `b` of a block in block-column `bj`: the lane plus `2048 · bj`, which is the
    array's column `bj · 2048 + b` as a word. -/
theorem col_word (bj b : Nat) :
    IntOp.addi (BitVec.ofNat 32 (0 * 2048 + b)) (Scalar.muli (BitVec.ofNat 32 bj) 2048#32) = BitVec.ofNat 32 (bj * 2048 + b) := by
  show BitVec.ofNat 32 (0 * 2048 + b) + BitVec.ofNat 32 bj * BitVec.ofNat 32 2048 = _
  rw [← BitVec.ofNat_mul, ← BitVec.ofNat_add]
  exact congrArg (BitVec.ofNat 32) (by omega)

/-- The stored word at `(a, b)`: the two signed comparisons of the column number with the loaded edges at row `a`,
    conjoined and widened. -/
theorem payload_apply (i : grid0.Coords) (x0 x1 : Vec F S2048x1 .i32) (a b : Fin 2048) :
    k0_pay1 i x0 x1 (ix2 a b)
      = (IntOp.andi (IntOp.cmpi .sge (BitVec.ofNat 32 ((i 1).val * 2048 + b.val)) (x0 (ix2 a (0 : Fin 1))))
          (IntOp.cmpi .sle (BitVec.ofNat 32 ((i 1).val * 2048 + b.val)) (x1 (ix2 a (0 : Fin 1))))).setWidth 32 := by
  rw [← col_word]
  unfold k0_pay1
  show (IntOp.andi (IntOp.cmpi .sge _ (broadcastTo S2048x2048 (shapeCast S2048x1 x0 _) _ (ix2 a b)))
      (IntOp.cmpi .sle _ (broadcastTo S2048x2048 (shapeCast S2048x1 x1 _) _ (ix2 a b)))).setWidth 32 = _
  rw [broadcast_col, broadcast_col, shapeCast_self, shapeCast_self]
  rfl

/-! ## The output array as one function -/

/-- The word the region leaves at `(r, c)`: `1` when column `c` lies between the row's two edges, else `0`. -/
def bandWord (L H : IVec S16384x1 32) : IVec S16384x16384 32 := fun j =>
  (IntOp.andi (IntOp.cmpi .sge (BitVec.ofNat 32 (j 1).val) (L (ix2 (⟨(j 0).val, idx2_lt0 j⟩ : Fin 16384) (0 : Fin 1))))
    (IntOp.cmpi .sle (BitVec.ofNat 32 (j 1).val) (H (ix2 (⟨(j 0).val, idx2_lt0 j⟩ : Fin 16384) (0 : Fin 1))))).setWidth 32

/-- One entry of one block: at a grid position in block-column `bj`, from loaded edge blocks that are rows `bi·2048 …`
    of the edge columns, the stored word at `y` is `bandWord` at the array index `(bi·2048 + y₀, bj·2048 + y₁)`. -/
theorem point_eq (i : grid0.Coords) (x0 x1 : Vec F S2048x1 .i32) (L H : IVec S16384x1 32)
    (y : S2048x2048.Idx) (J : S16384x16384.Idx)
    (hJ1 : (J 1).val = (i 1).val * 2048 + (y 1).val)
    (hx0 : x0 (ix2 (⟨(y 0).val, idx2_lt0 y⟩ : Fin 2048) (0 : Fin 1)) = L (ix2 (⟨(J 0).val, idx2_lt0 J⟩ : Fin 16384) (0 : Fin 1)))
    (hx1 : x1 (ix2 (⟨(y 0).val, idx2_lt0 y⟩ : Fin 2048) (0 : Fin 1)) = H (ix2 (⟨(J 0).val, idx2_lt0 J⟩ : Fin 16384) (0 : Fin 1))) :
    k0_pay1 i x0 x1 y = bandWord L H J := by
  have ey : y = ix2 (⟨(y 0).val, idx2_lt0 y⟩ : Fin 2048) (⟨(y 1).val, idx2_lt1 y⟩ : Fin 2048) := eq_ix2 y
  rw [ey, payload_apply, hx0, hx1]
  unfold bandWord
  rw [hJ1]

theorem hz : (![0, 0] : Fin 2 → Nat) = fun _ => 0 := funext fun a => by fin_cases a <;> rfl

/-- The printed index maps, decided over the 64 grid points: the edge windows follow the output's block-row and stay
    at block-column 0; the body's second grid coordinate is the output's block-column. -/
theorem index_facts : ∀ t : Fin cfg0.N, win0_0.index t (0 : Fin 2) = win0_2.index t (0 : Fin 2)
    ∧ win0_0.index t (1 : Fin 2) = 0
    ∧ win0_1.index t (0 : Fin 2) = win0_2.index t (0 : Fin 2)
    ∧ win0_1.index t (1 : Fin 2) = 0
    ∧ ((grid0.coords t) 1).val = win0_2.index t (1 : Fin 2)
    ∧ win0_2.index t (0 : Fin 2) ≤ 7 ∧ win0_2.index t (1 : Fin 2) ≤ 7 :=
  (by decide +kernel : ∀ t : Fin grid0.N, _)

/-- Every block of the 8 × 8 tiling is some point's. -/
theorem index_onto : ∀ (q0 : Fin 8) (q1 : Fin 8), ∃ t : Fin cfg0.N, win0_2.index t = ![q0.val, q1.val] :=
  (by decide +kernel : ∀ (q0 : Fin 8) (q1 : Fin 8), ∃ t : Fin grid0.N, win0_2.index t = ![q0.val, q1.val])

/-- What point `t` writes back is block `t` of `bandWord` of the two edge columns as the region finds them. -/
theorem written_eq (c : Dev nD) (t : Fin cfg0.N) :
    (dats m 0 c).flushed 2 t = ((cfg0.win 2).blk t).view.read (Elt F) (bandWord (V m c main_v13) (V m c main_v15)) := by
  show (cfg0.win 2).cut (grid0.coords t) ((dats m 0 c).after 2 t) = _
  rw [after0_2]
  unfold out0_2
  rw [View.canon_unit_zero hz]
  simp only [View.ld_unit_zero (S := S2048x1) hz]
  obtain ⟨e0, e1, e2, e3, e4, e5, e6⟩ := index_facts t
  funext y
  refine point_eq (grid0.coords t) (iblk m c 0 t) (iblk m c 1 t) (V m c main_v13) (V m c main_v15) y (((cfg0.win 2).blk t).view.emb y) ?_ ?_ ?_
  · show win0_2.index t (1 : Fin 2) * 2048 + 1 * (y 1).val = ((grid0.coords t) 1).val * 2048 + (y 1).val
    rw [e4]; omega
  · show V m c main_v13 (((cfg0.win 0).blk t).view.emb (ix2 (⟨(y 0).val, idx2_lt0 y⟩ : Fin 2048) (0 : Fin 1))) = V m c main_v13 _
    refine congrArg (V m c main_v13) (funext fun a => Fin.ext ?_)
    match a with
    | ⟨0, _⟩ => show win0_0.index t (0 : Fin 2) * 2048 + 1 * (y 0).val = win0_2.index t (0 : Fin 2) * 2048 + 1 * (y 0).val; omega
    | ⟨1, _⟩ => show win0_0.index t (1 : Fin 2) * 1 + 1 * 0 = 0; omega
  · show V m c main_v15 (((cfg0.win 1).blk t).view.emb (ix2 (⟨(y 0).val, idx2_lt0 y⟩ : Fin 2048) (0 : Fin 1))) = V m c main_v15 _
    refine congrArg (V m c main_v15) (funext fun a => Fin.ext ?_)
    match a with
    | ⟨0, _⟩ => show win0_1.index t (0 : Fin 2) * 2048 + 1 * (y 0).val = win0_2.index t (0 : Fin 2) * 2048 + 1 * (y 0).val; omega
    | ⟨1, _⟩ => show win0_1.index t (1 : Fin 2) * 1 + 1 * 0 = 0; omega

/-- An index of the array is in point `t`'s block iff each coordinate is in the block's range on its axis. -/
theorem mem_block (t : Fin cfg0.N) (i : S16384x16384.Idx) :
    i ∈ ((cfg0.win 2).blk t).view.set ↔ ∀ a : Fin 2, win0_2.index t a * S2048x2048.size a ≤ (i a).val ∧ (i a).val < win0_2.index t a * S2048x2048.size a + S2048x2048.size a := by
  show i ∈ ((View.whole main_v16).slice (win0_2.rect t)).set ↔ _
  rw [View.set_slice_whole, Rect.mem_set_unit]
  exact Iff.rfl

/-- The 64 blocks tile the array: the point covering `(r, c)` is the one whose block is `(r / 2048, c / 2048)`. -/
theorem cover (i : S16384x16384.Idx) : ∃ t : Fin cfg0.N, (cfg0.win 2).flush t = true ∧ i ∈ ((cfg0.win 2).blk t).view.set := by
  have hi0 : (i 0).val < 16384 := (i 0).isLt
  have hi1 : (i 1).val < 16384 := (i 1).isLt
  obtain ⟨t, ht⟩ := index_onto ⟨(i 0).val / 2048, by omega⟩ ⟨(i 1).val / 2048, by omega⟩
  have q0 : win0_2.index t (0 : Fin 2) = (i 0).val / 2048 := congrFun ht 0
  have q1 : win0_2.index t (1 : Fin 2) = (i 1).val / 2048 := congrFun ht 1
  refine ⟨t, flush0_2 t, ?_⟩
  rw [mem_block]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 2048 ≤ (i 1).val ∧ (i 1).val < win0_2.index t (1 : Fin 2) * 2048 + 2048; omega

/-- The output array after the region. -/
theorem array_eq (c : Dev nD) : (dats m 0 c).arrAt 2 cfg0.N = bandWord (V m c main_v13) (V m c main_v15) :=
  (dats m 0 c).arrAt_eq_of_cover 2 (bandWord (V m c main_v13) (V m c main_v15)) (fun t _ => written_eq m c t) cover

/-! ## Through the host operations after the region -/

/-- The result buffer after the last host operations: every word of the output array tested against zero. -/
theorem tail_eq (c : Dev nD) :
    (Pipeline.afterTail₀ cfgs (dats m) 0 (V0 m) [hostOps1] c main_v19 : S16384x16384.Idx → BitVec 1)
      = fun j => IntOp.cmpi .ne (bandWord (V m c main_v13) (V m c main_v15) j) 0#32 := by
  unfold Pipeline.afterTail₀
  show StableHlo.after hostOps1 _ (Proc.devRef .tc main_v19) = _
  after_results
  have e : Pipeline.withArrays (cfgs 0).spec c (V0 m c) (fun w => (dats m 0 c).arrAt w (cfgs 0).N) (Proc.devRef .tc main_v16)
      = (dats m 0 c).arrAt 2 cfg0.N :=
    Pipeline.withArrays_arr spec0 launch0.win.arr_inj c (V0 m c) (fun w => (dats m 0 c).arrAt w cfg0.N) 2
  rw [e, array_eq]
  rfl

end Cert.KernelIdeal.KValue

/-! ## At the extended reals: the result is the band mask of the scores -/

namespace Cert.KernelIdeal.KValue

open Cert.KernelIdeal Cert.KernelIdeal.Gen Cert.KernelIdeal.GenP Idealize.ShloMosaic Idealize.ShloMosaic.TcCoe Idealize.SL.Sem
open Idealize.ShloMosaic.ValueIdx Idealize.ShloMosaic.StableHlo

/-- The half-width of a row, read at the row: the scalar floor division of the scalar window size of the row's score. -/
theorem half_apply (p : FVec Ideal S16384 .f32) (r : Fin 16384) :
    half (wsK (F := Ideal) p) (ix1 r) = Cert.Band.halfOf (Cert.Band.wsOf ((33 : ℝ) : EReal) ((99 : ℝ) : EReal) (p (ix1 r))) := by
  rw [← Cert.Band.ofBits_33, ← Cert.Band.ofBits_99]
  rfl

/-- The edge columns read at a row. -/
theorem lo_apply (h : IVec S16384 32) (r : Fin 16384) : lo h (ix2 r (0 : Fin 1)) = IntOp.subi (BitVec.ofNat 32 r.val) (h (ix1 r)) := by
  unfold lo
  rw [shapeCast_apply _ _ (ix2 r (0 : Fin 1)) (ix1 r) (by rw [Shape.rowMajor_val_one, Shape.rowMajor_val_two]; show r.val = r.val * 1 + 0; omega)]
  rfl
theorem hi_apply (h : IVec S16384 32) (r : Fin 16384) : hi h (ix2 r (0 : Fin 1)) = IntOp.addi (BitVec.ofNat 32 r.val) (h (ix1 r)) := by
  unfold hi
  rw [shapeCast_apply _ _ (ix2 r (0 : Fin 1)) (ix1 r) (by rw [Shape.rowMajor_val_one, Shape.rowMajor_val_two]; show r.val = r.val * 1 + 0; omega)]
  rfl

/-- The tested words are the band mask of the scores. -/
theorem mask_eq (p : FVec Ideal S16384 .f32) :
    (fun j => IntOp.cmpi .ne (bandWord (lo (half (wsK p))) (hi (half (wsK p))) j) 0#32) = Cert.Band.maskOf p := by
  funext j
  unfold bandWord Cert.Band.maskOf Cert.Band.bandBit
  rw [Cert.Band.ne_zero_setWidth, lo_apply, hi_apply, half_apply]

variable (m : (ℓ : Loc nD τ sig) → Buf (Elt Ideal) ℓ) (ρ : Dev nD → PrngReg)

/-- Every weakly fair execution of the kernel's program terminates with the result buffer at the band mask of the
    argument's scores, the argument unchanged. -/
theorem run : θ_run (defs (F := Ideal)) (onTc (τ := τ) (main (F := Ideal))) ⟨m, fun _ => 0, ρ⟩ fun r => ∀ c : Dev nD,
      r.2.mem ((c.tc : Thread nD τ).loc main_v19) = Cert.Band.maskOf (pre (F := Ideal) (m ((c.tc : Thread nD τ).loc main_arg0)))
      ∧ r.2.mem ((c.tc : Thread nD τ).loc main_arg0) = m ((c.tc : Thread nD τ).loc main_arg0) :=
  (θ_run defs _ _).mono (fun _ h c =>
    ⟨((h c).2 main_v19 (Pipeline.mem_restRefs_of main_v19 (by decide) (by decide))).trans
        ((tail_eq m c).trans (by rw [entry_lo, entry_hi]; exact mask_eq _)),
      ((h c).2 main_arg0 (Pipeline.mem_restRefs_of main_arg0 (by decide) (by decide))).trans (W_main_arg0 m (dats m) c)⟩)
    (run_main m ρ)

end Cert.KernelIdeal.KValue

end
-- ==== Proof.lean ====
/-
  The kernel builds a 16384 × 16384 band mask: entry `(r, c)` is set when `r - half r ≤ c ≤ r + half r`, where `half r` is
  half (rounded down) of a per-row window size, the score `⌊33 · √(mx / mn)⌋` of the row's last two box entries clipped to
  `[33, 99]`. The reference computes the same mask and then sets the diagonal.

  The two agree on every input, finite or not. Whatever the score is as an extended real, the clip leaves a real in
  `[33, 99]`, so the window size is one of the integers 33 … 99 and its half is between 16 and 49; the row's own column
  `c = r` therefore already satisfies both comparisons (no 32-bit sum wraps, rows being below 16384), and setting the
  diagonal changes nothing. The remaining differences are of spelling only: the kernel gives the clip's bounds as the float
  words of 33.0 and 99.0 where the reference converts the integers 33 and 99; the kernel computes the mask block by block
  over an 8 × 8 grid, as 32-bit words that the host then tests against zero, where the reference compares whole arrays.

  Both programs' results are stated as `Cert.Band.maskOf` of the per-row scores: the kernel's in Proof/KernelValue.lean (the
  output array read off the region's run block by block, then through the host operations after it), the reference's in
  Proof/RefRun.lean (its program as one straight line of host operations) and Proof/RefValue.lean (the diagonal absorbed).
  The scores themselves are the same host operations with the same literals in both programs, and are never opened.
  The three frame claims are the programs' runs with the results dropped; the ideal pass rewrote nothing, so the kernel's
  idealization is its own text read over the extended reals and there is nothing to preserve.
-/
import proofs.«159770_j76948634075228_2_alg».proof.Defs
import proofs.«159770_j76948634075228_2_alg».proof.Proof.Gen.Kernel
import proofs.«159770_j76948634075228_2_alg».proof.Proof.Gen.KernelIdeal
import proofs.«159770_j76948634075228_2_alg».proof.Proof.Gen.ReferenceIdeal
import proofs.«159770_j76948634075228_2_alg».proof.Proof.Gen.Pre_finite_inputs
import proofs.«159770_j76948634075228_2_alg».proof.Proof.FrameKernel
import proofs.«159770_j76948634075228_2_alg».proof.Proof.FrameKernelIdeal
import proofs.«159770_j76948634075228_2_alg».proof.Proof.RefRun
import proofs.«159770_j76948634075228_2_alg».proof.Proof.RefValue
import proofs.«159770_j76948634075228_2_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel program runs and leaves its argument as launched. -/
theorem frame_kernel : Cert.frame_Kernel := fun m ρ _ => Cert.Kernel.GenP.frame m ρ

/-- So does the kernel program read over the extended reals. -/
theorem frame_kernelIdeal : Cert.frame_KernelIdeal := fun m ρ _ => Cert.KernelIdeal.GenP.frame m ρ

/-- The reference is a straight line of host operations none of which writes the argument. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The ideal pass rewrote no operation. -/
theorem preserves : Cert.preserves_Kernel_KernelIdeal := trivial

/-- The per-row scores are one function in the two programs: the same host operations with the same literals. -/
theorem scores_eq (x : FVec Ideal Cert.KernelIdeal.S16384x4 .f32) :
    Cert.ReferenceIdeal.RefRun.pre (F := Ideal) x = Cert.KernelIdeal.KValue.pre (F := Ideal) x := rfl

/-- From memories agreeing on the argument both programs end with the band mask of the argument's scores. -/
theorem algebraic : Cert.algebraic_KernelIdeal_ReferenceIdeal := by
  intro m ρ m' ρ' _ hagree
  refine ⟨fun c => Cert.Band.maskOf (Cert.KernelIdeal.KValue.pre (F := Ideal)
      (m ((c.tc : Thread Cert.KernelIdeal.nD Cert.KernelIdeal.τ).loc Cert.KernelIdeal.main_arg0))),
    Cert.KernelIdeal.KValue.run m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefValue.mask_eq, hagree c]
  exact congrArg Cert.Band.maskOf (scores_eq _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
